-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S1250000 : Shape := ⟨1, ![1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000 : S_.BroadcastsInDim S1250000 (![] : Fin 0 → Fin S1250000.rank)
  reducesTo_S1250000_S_d0 : S1250000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S2x1250000 32) (main_arg2 : FVec F S1250000 .f32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000 .f32 := Host.absf main_arg2
  let main_cst_0 : FVec F S_ .f32 := constant S_ .f32 0x7F800000#32
  let main_v5 : FVec F S1250000 .f32 := broadcastInDim S1250000 ![] bcast_S_S1250000 main_cst_0
  let main_v6 : IVec S1250000 1 := cmpf .olt main_v4 main_v5
  let main_c_1 : IVec S_ 1 := constantI S_ 1 1#1
  let main_v7 : IVec S_ 1 := (fun x v => Host.reduce IntOp.andi x v reducesTo_S1250000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1250000 : Shape := ⟨2, ![2, 1250000]⟩
abbrev S1250000 : Shape := ⟨1, ![1250000]⟩
abbrev S64x64 : Shape := ⟨2, ![64, 64]⟩
abbrev S64 : Shape := ⟨1, ![64]⟩
abbrev S100000 : Shape := ⟨1, ![100000]⟩
abbrev S1x1250000 : Shape := ⟨2, ![1, 1250000]⟩
abbrev S1350000 : Shape := ⟨1, ![1350000]⟩
abbrev S_ : Shape := ⟨0, ![]⟩
abbrev S1350000x1 : Shape := ⟨2, ![1350000, 1]⟩
abbrev S10000x64 : Shape := ⟨2, ![10000, 64]⟩
abbrev S1350000x64 : Shape := ⟨2, ![1350000, 64]⟩
abbrev S1x64 : Shape := ⟨2, ![1, 64]⟩

abbrev nBuf : Space → Nat
  | .hbm => 87
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1250000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1x1250000, .i32⟩
  | .hbm, ⟨9, _⟩ => ⟨S1250000, .i32⟩
  | .hbm, ⟨10, _⟩ => ⟨S1350000, .i32⟩
  | .hbm, ⟨11, _⟩ => ⟨S1x1250000, .i32⟩
  | .hbm, ⟨12, _⟩ => ⟨S1250000, .i32⟩
  | .hbm, ⟨13, _⟩ => ⟨S1350000, .i32⟩
  | .hbm, ⟨14, _⟩ => ⟨S_, .f32⟩
  | .hbm, ⟨15, _⟩ => ⟨S100000, .f32⟩
  | .hbm, ⟨16, _⟩ => ⟨S1350000, .f32⟩
  | .hbm, ⟨17, _⟩ => ⟨S_, .f32⟩
  | .hbm, ⟨18, _⟩ => ⟨S100000, .f32⟩
  | .hbm, ⟨19, _⟩ => ⟨S1350000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1350000, .i32⟩
  | .hbm, ⟨31, _⟩ => ⟨S1350000, .i1⟩
  | .hbm, ⟨32, _⟩ => ⟨S_, .i32⟩
  | .hbm, ⟨33, _⟩ => ⟨S1350000, .i32⟩
  | .hbm, ⟨34, _⟩ => ⟨S1350000, .i32⟩
  | .hbm, ⟨35, _⟩ => ⟨S1350000, .i32⟩
  | .hbm, ⟨36, _⟩ => ⟨S1350000x1, .i32⟩
  | .hbm, ⟨37, _⟩ => ⟨S1350000, .f32⟩
  | .hbm, ⟨38, _⟩ => ⟨S1350000, .f32⟩
  | .hbm, ⟨39, _⟩ => ⟨S_, .i32⟩
  | .hbm, ⟨40, _⟩ => ⟨S1350000, .i32⟩
  | .hbm, ⟨41, _⟩ => ⟨S1350000, .i1⟩
  | .hbm, ⟨42, _⟩ => ⟨S_, .i32⟩
  | .hbm, ⟨43, _⟩ => ⟨S1350000, .i32⟩
  | .hbm, ⟨44, _⟩ => ⟨S1350000, .i32⟩
  | .hbm, ⟨45, _⟩ => ⟨S1350000, .i32⟩
  | .hbm, ⟨46, _⟩ => ⟨S1350000x1, .i32⟩
  | .hbm, ⟨47, _⟩ => ⟨S1350000, .f32⟩
  | .hbm, ⟨48, _⟩ => ⟨S1350000, .f32⟩
  | .hbm, ⟨49, _⟩ => ⟨S100000x64, .f32⟩
  | .hbm, ⟨50, _⟩ => ⟨S_, .i32⟩
  | .hbm, ⟨51, _⟩ => ⟨S1350000, .i32⟩
  | .hbm, ⟨52, _⟩ => ⟨S1350000, .i1⟩
  | .hbm, ⟨53, _⟩ => ⟨S_, .i32⟩
  | .hbm, ⟨54, _⟩ => ⟨S1350000, .i32⟩
  | .hbm, ⟨55, _⟩ => ⟨S1350000, .i32⟩
  | .hbm, ⟨56, _⟩ => ⟨S1350000, .i32⟩
  | .hbm, ⟨57, _⟩ => ⟨S1350000x1, .i32⟩
  | .hbm, ⟨58, _⟩ => ⟨S1350000x64, .f32⟩
  | .hbm, ⟨59, _⟩ => ⟨S1350000x1, .f32⟩
  | .hbm, ⟨60, _⟩ => ⟨S1350000x64, .f32⟩
  | .hbm, ⟨61, _⟩ => ⟨S1350000x64, .f32⟩
  | .hbm, ⟨62, _⟩ => ⟨S_, .f32⟩
  | .hbm, ⟨63, _⟩ => ⟨S100000x64, .f32⟩
  | .hbm, ⟨64, _⟩ => ⟨S1350000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1350000, .i32⟩
  | .hbm, ⟨71, _⟩ => ⟨S1350000, .i1⟩
  | .hbm, ⟨72, _⟩ => ⟨S_, .i32⟩
  | .hbm, ⟨73, _⟩ => ⟨S1350000, .i32⟩
  | .hbm, ⟨74, _⟩ => ⟨S1350000, .i32⟩
  | .hbm, ⟨75, _⟩ => ⟨S1350000, .i32⟩
  | .hbm, ⟨76, _⟩ => ⟨S1350000x1, .i32⟩
  | .hbm, ⟨77, _⟩ => ⟨S1350000x64, .f32⟩
  | .hbm, ⟨78, _⟩ => ⟨S1350000x1, .f32⟩
  | .hbm, ⟨79, _⟩ => ⟨S1350000x64, .f32⟩
  | .hbm, ⟨80, _⟩ => ⟨S1350000x64, .f32⟩
  | .hbm, ⟨81, _⟩ => ⟨S_, .f32⟩
  | .hbm, ⟨82, _⟩ => ⟨S100000x64, .f32⟩
  | .hbm, ⟨83, _⟩ => ⟨S1350000x1, .i32⟩
  | .hbm, ⟨84, _⟩ => ⟨S100000x64, .f32⟩
  | .hbm, ⟨85, _⟩ => ⟨S1x64, .f32⟩
  | .hbm, ⟨86, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S100000 : S_.BroadcastsInDim S100000 (![] : Fin 0 → Fin S100000.rank)
  bcast_S1350000_S1350000x1_0 : S1350000.BroadcastsInDim S1350000x1 (![0] : Fin 1 → Fin S1350000x1.rank)
  bcast_S_S1350000 : S_.BroadcastsInDim S1350000 (![] : Fin 0 → Fin S1350000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S10000x64_S64x64_S10000x64_1_0_0_1_n_n_wf : DotDims.WF S10000x64 S64x64 S10000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1250000 : Shape := ⟨1, ![1250000]⟩
abbrev S64x64 : Shape := ⟨2, ![64, 64]⟩
abbrev S64 : Shape := ⟨1, ![64]⟩
abbrev S100000 : Shape := ⟨1, ![100000]⟩
abbrev S1x1250000 : Shape := ⟨2, ![1, 1250000]⟩
abbrev S1350000 : Shape := ⟨1, ![1350000]⟩
abbrev S_ : Shape := ⟨0, ![]⟩
abbrev S1350000x1 : Shape := ⟨2, ![1350000, 1]⟩
abbrev S1350000x64 : Shape := ⟨2, ![1350000, 64]⟩
abbrev S1x64 : Shape := ⟨2, ![1, 64]⟩

abbrev nBuf : Space → Nat
  | .hbm => 140
  | .vmem => 0
  | .smem => 0
  | _ => 0

abbrev hbmTy0_0 (i : Nat) : BufTy := match i % 128 with
  | 0 => ⟨S100000x64, .f32⟩
  | 1 => ⟨S2x1250000, .i32⟩
  | 2 => ⟨S1250000, .f32⟩
  | 3 => ⟨S64x64, .f32⟩
  | 4 => ⟨S64, .f32⟩
  | 5 => ⟨S64x64, .f32⟩
  | 6 => ⟨S64, .f32⟩
  | 7 => ⟨S100000x64, .f32⟩
  | 8 => ⟨S100000, .i32⟩
  | 9 => ⟨S1x1250000, .i32⟩
  | 10 => ⟨S1250000, .i32⟩
  | 11 => ⟨S1350000, .i32⟩
  | 12 => ⟨S1x1250000, .i32⟩
  | 13 => ⟨S1250000, .i32⟩
  | 14 => ⟨S1350000, .i32⟩
  | 15 => ⟨S_, .f32⟩
  | 16 => ⟨S100000, .f32⟩
  | 17 => ⟨S1350000, .f32⟩
  | 18 => ⟨S_, .f32⟩
  | 19 => ⟨S100000, .f32⟩
  | 20 => ⟨S1350000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1350000, .i32⟩
  | 32 => ⟨S1350000, .i1⟩
  | 33 => ⟨S_, .i32⟩
  | 34 => ⟨S1350000, .i32⟩
  | 35 => ⟨S1350000, .i32⟩
  | 36 => ⟨S1350000, .i32⟩
  | 37 => ⟨S1350000x1, .i32⟩
  | 38 => ⟨S1350000, .f32⟩
  | 39 => ⟨S1350000, .f32⟩
  | 40 => ⟨S_, .i32⟩
  | 41 => ⟨S1350000, .i32⟩
  | 42 => ⟨S1350000, .i1⟩
  | 43 => ⟨S_, .i32⟩
  | 44 => ⟨S1350000, .i32⟩
  | 45 => ⟨S1350000, .i32⟩
  | 46 => ⟨S1350000, .i32⟩
  | 47 => ⟨S1350000x1, .i32⟩
  | 48 => ⟨S1350000, .f32⟩
  | 49 => ⟨S1350000, .f32⟩
  | 50 => ⟨S_, .i32⟩
  | 51 => ⟨S1350000, .i32⟩
  | 52 => ⟨S1350000, .i1⟩
  | 53 => ⟨S_, .i32⟩
  | 54 => ⟨S1350000, .i32⟩
  | 55 => ⟨S1350000, .i32⟩
  | 56 => ⟨S1350000, .i32⟩
  | 57 => ⟨S1350000x1, .i32⟩
  | 58 => ⟨S1350000x64, .f32⟩
  | 59 => ⟨S1350000x1, .f32⟩
  | 60 => ⟨S1350000x64, .f32⟩
  | 61 => ⟨S1350000x64, .f32⟩
  | 62 => ⟨S_, .f32⟩
  | 63 => ⟨S100000x64, .f32⟩
  | 64 => ⟨S1350000x1, .i32⟩
  | 65 => ⟨S100000x64, .f32⟩
  | 66 => ⟨S1x64, .f32⟩
  | 67 => ⟨S100000x64, .f32⟩
  | 68 => ⟨S100000x64, .f32⟩
  | 69 => ⟨S100000x64, .f32⟩
  | 70 => ⟨S100000x64, .f32⟩
  | 71 => ⟨S100000, .i32⟩
  | 72 => ⟨S1x1250000, .i32⟩
  | 73 => ⟨S1250000, .i32⟩
  | 74 => ⟨S1350000, .i32⟩
  | 75 => ⟨S1x1250000, .i32⟩
  | 76 => ⟨S1250000, .i32⟩
  | 77 => ⟨S1350000, .i32⟩
  | 78 => ⟨S_, .f32⟩
  | 79 => ⟨S100000, .f32⟩
  | 80 => ⟨S1350000, .f32⟩
  | 81 => ⟨S_, .f32⟩
  | 82 => ⟨S100000, .f32⟩
  | 83 => ⟨S1350000x1, .i32⟩
  | 84 => ⟨S100000, .f32⟩
  | 85 => ⟨S_, .f32⟩
  | 86 => ⟨S100000, .f32⟩
  | 87 => ⟨S100000, .i1⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1350000, .i32⟩
  | 95 => ⟨S1350000, .i1⟩
  | 96 => ⟨S_, .i32⟩
  | 97 => ⟨S1350000, .i32⟩
  | 98 => ⟨S1350000, .i32⟩
  | 99 => ⟨S1350000, .i32⟩
  | 100 => ⟨S1350000x1, .i32⟩
  | 101 => ⟨S1350000, .f32⟩
  | 102 => ⟨S1350000, .f32⟩
  | 103 => ⟨S_, .i32⟩
  | 104 => ⟨S1350000, .i32⟩
  | 105 => ⟨S1350000, .i1⟩
  | 106 => ⟨S_, .i32⟩
  | 107 => ⟨S1350000, .i32⟩
  | 108 => ⟨S1350000, .i32⟩
  | 109 => ⟨S1350000, .i32⟩
  | 110 => ⟨S1350000x1, .i32⟩
  | 111 => ⟨S1350000, .f32⟩
  | 112 => ⟨S1350000, .f32⟩
  | 113 => ⟨S_, .i32⟩
  | 114 => ⟨S1350000, .i32⟩
  | 115 => ⟨S1350000, .i1⟩
  | 116 => ⟨S_, .i32⟩
  | 117 => ⟨S1350000, .i32⟩
  | 118 => ⟨S1350000, .i32⟩
  | 119 => ⟨S1350000, .i32⟩
  | 120 => ⟨S1350000x1, .i32⟩
  | 121 => ⟨S1350000x64, .f32⟩
  | 122 => ⟨S1350000x1, .f32⟩
  | 123 => ⟨S1350000x64, .f32⟩
  | 124 => ⟨S1350000x64, .f32⟩
  | 125 => ⟨S_, .f32⟩
  | 126 => ⟨S100000x64, .f32⟩
  | 127 => ⟨S1350000x1, .i32⟩
  | _ => ⟨S100000x64, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S_, .f32⟩
  | 10 => ⟨S100000x64, .f32⟩
  | 11 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_call1_v0 : Ref sig .tc := ⟨.hbm, 90, rfl⟩
abbrev main_call1_v1 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_15 : Ref sig .tc := ⟨.hbm, 103, rfl⟩
abbrev main_v75 : Ref sig .tc := ⟨.hbm, 104, rfl⟩
abbrev main_v76 : Ref sig .tc := ⟨.hbm, 105, rfl⟩
abbrev main_c_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_17 : Ref sig .tc := ⟨.hbm, 113, rfl⟩
abbrev main_v83 : Ref sig .tc := ⟨.hbm, 114, rfl⟩
abbrev main_v84 : Ref sig .tc := ⟨.hbm, 115, rfl⟩
abbrev main_c_18 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_19 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_20 : Ref sig .tc := ⟨.hbm, 134, rfl⟩
abbrev main_v101 : Ref sig .tc := ⟨.hbm, 135, rfl⟩
abbrev main_v102 : Ref sig .tc := ⟨.hbm, 136, rfl⟩
abbrev main_cst_21 : Ref sig .tc := ⟨.hbm, 137, rfl⟩
abbrev main_v103 : Ref sig .tc := ⟨.hbm, 138, rfl⟩
abbrev main_v104 : Ref sig .tc := ⟨.hbm, 139, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S100000 : S_.BroadcastsInDim S100000 (![] : Fin 0 → Fin S100000.rank)
  bcast_S1350000_S1350000x1_0 : S1350000.BroadcastsInDim S1350000x1 (![0] : Fin 1 → Fin S1350000x1.rank)
  bcast_S_S1350000 : S_.BroadcastsInDim S1350000 (![] : Fin 0 → Fin S1350000.rank)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf

class Facts : Prop extends Facts₀ where

variable [Facts]
-- ==== Proof.KernelRun.lean ====
/-
  The kernel program's run, with its result named.

  The program is nine segments: three stretches of host operations, the first dense product, a stretch that gathers,
  scales and scatter-adds its rows, the bias-and-tanh region, the second dense product, another stretch of
  gather / scale / scatter-add, and the bias-and-logistic region.  The contents of every buffer at each segment
  boundary are a fold from the launch memory; the last boundary's contents are what every final state holds.  Read at
  the program's result buffer they give the result; read at an argument they give the argument as launched.
-/
import proofs.«111047_j28243704939345_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents at that buffer, and every argument array is as launched. -/
theorem run_value : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Result

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«111047_j28243704939345_1_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.LibBlockOfWhole.lean ====
/-
  Row blocks of whole-array computations, at the ideal values.

  An [N, C] array is cut into blocks of R consecutive rows; the block that starts at row o holds rows o … o + R − 1.
  Every operation of a dense network acts on each row by itself, so computing on a block gives the block of the
  whole-array result: the product of a row block with a weight matrix is the row block of the product; a bias
  vector stretched down R rows is the row block of the vector stretched down N rows; a column stretched across the
  columns, a constant, a sum, a product, a maximum and the logistic function all commute with taking the block.
  The 0/1 mask of "this row's task is t", computed on a block by comparing the block's task column with t, is the
  block of column t of the one-hot array of all tasks.  The logistic function is the quotient 1 / (1 + exp (−z)) by
  definition, and the bit pattern of 1.0 denotes 1.
-/
import Idealize.ShloMosaic.PureOps.Ideal.Laws
import Idealize.ShloMosaic.Lib.ValueIdx
import Idealize.ShloMosaic.Lib.Pipeline.Value
import Idealize.ShloMosaic.Lib.KernelVsHost
import proofs.«111047_j28243704939345_1_alg».proof.Proof.LibRowBlocks

noncomputable section

namespace Cert.Blocks

open Idealize.ShloMosaic Idealize.ShloMosaic.ValueIdx Cert.Lib.PlainDot Cert.Bridge
open scoped BigOperators

variable {R N K C : Nat}

/-- Entry (p, c) of the block that starts at row o sits at entry (o + p, c) of the array. -/
def shiftRow (o : Nat) (h : o + R ≤ N) (y : (⟨2, ![R, C]⟩ : Shape).Idx) : (⟨2, ![N, C]⟩ : Shape).Idx := fun a => match a with
  | ⟨0, _⟩ => ⟨o + (y 0).val, Nat.lt_of_lt_of_le (Nat.add_lt_add_left (y 0).isLt o) h⟩
  | ⟨1, _⟩ => ⟨(y 1).val, (y 1).isLt⟩

/-- The block of R rows of an array that starts at row o. -/
def rowBlk {α : Type} (o : Nat) (h : o + R ≤ N) (A : (⟨2, ![N, C]⟩ : Shape).Idx → α) : (⟨2, ![R, C]⟩ : Shape).Idx → α :=
  fun y => A (shiftRow o h y)

theorem rowBlk_apply {α : Type} (o : Nat) (h : o + R ≤ N) (A : (⟨2, ![N, C]⟩ : Shape).Idx → α)
    (y : (⟨2, ![R, C]⟩ : Shape).Idx) : rowBlk o h A y = A (shiftRow o h y) := rfl

theorem shiftRow_rowIdx (o : Nat) (h : o + R ≤ N) (y : (⟨2, ![R, C]⟩ : Shape).Idx) (k : Fin K) :
    shiftRow o h (rowIdx y k) = rowIdx (shiftRow o h y) k :=
  funext fun a => Fin.ext (by match a with | ⟨0, _⟩ => rfl | ⟨1, _⟩ => rfl)

theorem shiftRow_colIdx (o : Nat) (h : o + R ≤ N) (y : (⟨2, ![R, C]⟩ : Shape).Idx) (k : Fin K) :
    (colIdx y k : (⟨2, ![K, C]⟩ : Shape).Idx) = colIdx (shiftRow o h y) k :=
  funext fun a => Fin.ext (by match a with | ⟨0, _⟩ => rfl | ⟨1, _⟩ => rfl)

theorem shiftRow_rowZero (o : Nat) (h : o + R ≤ N) (y : (⟨2, ![R, C]⟩ : Shape).Idx) :
    (rowZero y : (⟨2, ![1, C]⟩ : Shape).Idx) = rowZero (shiftRow o h y) :=
  funext fun a => Fin.ext (by match a with | ⟨0, _⟩ => rfl | ⟨1, _⟩ => rfl)

/-! ## Pointwise operations -/

/-- A change of float format is the identity on the extended reals. -/
theorem truncf_ideal {s : Shape} {φ ψ : FTy} (hψ : ψ.bits < φ.bits) (v : FVec Ideal s φ) :
    (truncf ψ v hψ : FVec Ideal s ψ) = v := rfl

theorem addf_rowBlk {φ : FTy} (o : Nat) (h : o + R ≤ N) (A B : FVec Ideal ⟨2, ![N, C]⟩ φ) :
    addf (rowBlk o h A) (rowBlk o h B) = rowBlk o h (addf A B) := rfl

theorem mulf_rowBlk {φ : FTy} (o : Nat) (h : o + R ≤ N) (A B : FVec Ideal ⟨2, ![N, C]⟩ φ) :
    mulf (rowBlk o h A) (rowBlk o h B) = rowBlk o h (mulf A B) := rfl

theorem maximumf_rowBlk {φ : FTy} (o : Nat) (h : o + R ≤ N) (A B : FVec Ideal ⟨2, ![N, C]⟩ φ) :
    maximumf (rowBlk o h A) (rowBlk o h B) = rowBlk o h (maximumf A B) := rfl

/-- A constant array is the block of the constant array. -/
theorem splat_rowBlk (o : Nat) (h : o + R ≤ N) (z : BitVec 32)
    (hZ : (⟨0, ![]⟩ : Shape).BroadcastsInDim ⟨2, ![N, C]⟩ ![]) :
    (broadcast ⟨2, ![R, C]⟩ (Scalar.ofBits (F := Ideal) .f32 z) : FVec Ideal ⟨2, ![R, C]⟩ .f32)
      = rowBlk o h (broadcastInDim ⟨2, ![N, C]⟩ ![] hZ (constant (F := Ideal) ⟨0, ![]⟩ .f32 z)) := by
  funext y
  rw [rowBlk_apply, hostSplat_apply]
  rfl

/-! ## The dense layer's pieces -/

/-- The product of a row block with a weight matrix is the row block of the product. -/
theorem matmul_rowBlk {φ₁ φ₂ : FTy} (o : Nat) (h : o + R ≤ N)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (X : FVec Ideal ⟨2, ![N, K]⟩ φ₁) (W : FVec Ideal ⟨2, ![K, C]⟩ φ₂) :
    matmul d none (rowBlk o h X) W (constant ⟨2, ![R, C]⟩ .f32 0x00000000#32) = rowBlk o h (Host.dotGeneral D none X W) :=
  funext fun y => dot_block d hd D hD none none X W (rowBlk o h X) W (shiftRow o h) id (shiftRow o h)
    (fun _ => rfl) (fun _ => rfl) (fun y k => shiftRow_rowIdx o h y k) (fun y k => shiftRow_colIdx o h y k) y

/-- A bias vector laid out as one row and stretched down R rows is the row block of the vector broadcast along a new
    leading axis and then down N rows. -/
theorem biasRow_rowBlk {φ : FTy} (o : Nat) (h : o + R ≤ N) (v : FVec Ideal ⟨1, ![C]⟩ φ)
    (h2 : (⟨1, ![C]⟩ : Shape).ShapeCasts ⟨2, ![1, C]⟩) (hb : (⟨2, ![1, C]⟩ : Shape).Broadcasts ⟨2, ![R, C]⟩)
    (hb' : (⟨1, ![C]⟩ : Shape).BroadcastsInDim ⟨2, ![1, C]⟩ ![1])
    (hB : (⟨2, ![1, C]⟩ : Shape).BroadcastsInDim ⟨2, ![N, C]⟩ ![0, 1]) :
    broadcastTo ⟨2, ![R, C]⟩ (shapeCast ⟨2, ![1, C]⟩ v h2) hb
      = rowBlk o h (broadcastInDim ⟨2, ![N, C]⟩ ![0, 1] hB (broadcastInDim ⟨2, ![1, C]⟩ ![1] hb' v)) := by
  funext y
  rw [rowBlk_apply, stretchRow_apply, hostStretchRow_apply, reshapeRow_eq v h2 hb', shiftRow_rowZero o h y]

/-- Entry (p, 0) of a one-column matrix, for the row p of the entry `j`. -/
abbrev colZero {A : Nat} (j : (⟨2, ![A, C]⟩ : Shape).Idx) : (⟨2, ![A, 1]⟩ : Shape).Idx := fun a => match a with
  | ⟨0, _⟩ => ⟨(j 0).val, (j 0).isLt⟩
  | ⟨1, _⟩ => ⟨0, Nat.one_pos⟩

/-- A column stretched across C columns, on a block, is the block of the column stretched across C columns. -/
theorem colStretch_rowBlk {α : Type} (o : Nat) (h : o + R ≤ N) (M : (⟨2, ![N, 1]⟩ : Shape).Idx → α)
    (hb : (⟨2, ![R, 1]⟩ : Shape).Broadcasts ⟨2, ![R, C]⟩)
    (hB : (⟨2, ![N, 1]⟩ : Shape).BroadcastsInDim ⟨2, ![N, C]⟩ ![0, 1]) :
    broadcastTo ⟨2, ![R, C]⟩ (rowBlk (C := 1) o h M) hb = rowBlk o h (broadcastInDim ⟨2, ![N, C]⟩ ![0, 1] hB M) := by
  funext y
  have e1 : broadcastTo ⟨2, ![R, C]⟩ (rowBlk (C := 1) o h M) hb y = rowBlk (C := 1) o h M (colZero y) :=
    broadcastTo_apply _ hb y (colZero y) (fun a => by
      match a with
      | ⟨0, _⟩ =>
        show (y 0).val = if R = 1 then 0 else (y 0).val
        have hlt : (y 0).val < R := (y 0).isLt
        split_ifs with hR
        · omega
        · rfl
      | ⟨1, _⟩ => exact (if_pos rfl).symm)
  have e2 : broadcastInDim ⟨2, ![N, C]⟩ ![0, 1] hB M (shiftRow o h y) = M (colZero (shiftRow o h y)) :=
    broadcastInDim_apply ![0, 1] hB M (shiftRow o h y) (colZero (shiftRow o h y)) (fun a => by
      match a with
      | ⟨0, _⟩ =>
        show o + (y 0).val = if N = 1 then 0 else o + (y 0).val
        have hlt : (y 0).val < R := (y 0).isLt
        split_ifs with hN
        · omega
        · rfl
      | ⟨1, _⟩ => exact (if_pos rfl).symm)
  rw [e1, rowBlk_apply, rowBlk_apply, e2]
  exact congrArg M (funext fun a => Fin.ext (by match a with | ⟨0, _⟩ => rfl | ⟨1, _⟩ => rfl))

/-! ## The task mask -/

/-- The block's 0/1 flag "the row's task word is t" is the block of column t of the one-hot array of the tasks:
    a one-bit comparison widened to 32 bits and read as a signed number is the bit read as an unsigned number,
    and column t of the counting row 0, 1, 2, 3 stretched down the rows holds the word t. -/
theorem mask_rowBlk (o : Nat) (h : o + R ≤ N) (BT : IVec ⟨1, ![N]⟩ 32) (t : Nat) (ht : t < 4) (w : BitVec 32)
    (hw : w = BitVec.ofNat 32 t) (hlt : 1 < 32)
    (hs : (⟨1, ![N]⟩ : Shape).ShapeCasts ⟨2, ![N, 1]⟩)
    (h1 : (⟨1, ![N]⟩ : Shape).BroadcastsInDim ⟨2, ![N, 1]⟩ ![0])
    (h2 : (⟨2, ![N, 1]⟩ : Shape).BroadcastsInDim ⟨2, ![N, 4]⟩ ![0, 1])
    (h3 : (⟨2, ![1, 4]⟩ : Shape).BroadcastsInDim ⟨2, ![N, 4]⟩ ![0, 1])
    (hsl : (⟨2, ![N, 4]⟩ : Shape).Slices ![0, t] ⟨2, ![N, 1]⟩) :
    (sitofp .f32 (extui 32 (cmpi .eq (rowBlk (C := 1) o h (shapeCast ⟨2, ![N, 1]⟩ BT hs)) (broadcast ⟨2, ![R, 1]⟩ w)) hlt)
        : FVec Ideal ⟨2, ![R, 1]⟩ .f32)
      = rowBlk (C := 1) o h (extractStridedSlice ⟨2, ![N, 1]⟩ ![0, t]
          (uitofp (F := Ideal) .f32 (cmpi .eq (broadcastInDim ⟨2, ![N, 4]⟩ ![0, 1] h2 (broadcastInDim ⟨2, ![N, 1]⟩ ![0] h1 BT))
            (broadcastInDim ⟨2, ![N, 4]⟩ ![0, 1] h3 (iotaInDim ⟨2, ![1, 4]⟩ 32 1)))) hsl) := by
  rw [sitofp_extui_eq_uitofp]
  funext y
  rw [rowBlk_apply]
  have hlt : (y 0).val < R := (y 0).isLt
  have hy1 : (y 1).val < 1 := (y 1).isLt
  have hi : o + (y 0).val < N := by omega
  have eL : shapeCast ⟨2, ![N, 1]⟩ BT hs (shiftRow o h y) = BT (ix1 (⟨o + (y 0).val, hi⟩ : Fin N)) :=
    shapeCast_apply BT hs _ (ix1 (⟨o + (y 0).val, hi⟩ : Fin N)) (by
      rw [Shape.rowMajor_val_one, Shape.rowMajor_val_two]
      show o + (y 0).val = (o + (y 0).val) * 1 + (y 1).val
      omega)
  have eS : ∀ G : (⟨2, ![N, 4]⟩ : Shape).Idx → EReal,
      extractStridedSlice ⟨2, ![N, 1]⟩ ![0, t] G hsl (shiftRow o h y)
        = G (ix2 (⟨o + (y 0).val, hi⟩ : Fin N) (⟨t, ht⟩ : Fin 4)) := fun G =>
    extractStridedSlice_apply _ G hsl _ (ix2 (⟨o + (y 0).val, hi⟩ : Fin N) (⟨t, ht⟩ : Fin 4)) (fun a => by
      match a with
      | ⟨0, _⟩ => exact (Nat.zero_add _).symm
      | ⟨1, _⟩ =>
        show t = t + (y 1).val
        omega)
  have eP : broadcastInDim ⟨2, ![N, 4]⟩ ![0, 1] h2 (broadcastInDim ⟨2, ![N, 1]⟩ ![0] h1 BT)
      (ix2 (⟨o + (y 0).val, hi⟩ : Fin N) (⟨t, ht⟩ : Fin 4)) = BT (ix1 (⟨o + (y 0).val, hi⟩ : Fin N)) := by
    rw [broadcastInDim_apply ![0, 1] h2 _ _ (ix2 (⟨o + (y 0).val, hi⟩ : Fin N) (0 : Fin 1)) (fun a => by
        match a with
        | ⟨0, _⟩ =>
          show o + (y 0).val = if N = 1 then 0 else o + (y 0).val
          split_ifs with hN
          · omega
          · rfl
        | ⟨1, _⟩ => exact (if_pos rfl).symm),
      broadcastInDim_apply ![0] h1 BT _ (ix1 (⟨o + (y 0).val, hi⟩ : Fin N)) (fun a => by
        match a with
        | ⟨0, _⟩ =>
          show o + (y 0).val = if N = 1 then 0 else o + (y 0).val
          split_ifs with hN
          · omega
          · rfl)]
  have eQ : broadcastInDim ⟨2, ![N, 4]⟩ ![0, 1] h3 (iotaInDim ⟨2, ![1, 4]⟩ 32 1)
      (ix2 (⟨o + (y 0).val, hi⟩ : Fin N) (⟨t, ht⟩ : Fin 4)) = BitVec.ofNat 32 t := by
    rw [broadcastInDim_apply ![0, 1] h3 _ _ (ix2 (0 : Fin 1) (⟨t, ht⟩ : Fin 4)) (fun a => by
        match a with
        | ⟨0, _⟩ => exact (if_pos rfl).symm
        | ⟨1, _⟩ =>
          show t = if (4 : Nat) = 1 then 0 else t
          rw [if_neg (by decide)])]
    rfl
  rw [eS]
  show FloatOps.uitofp .f32 (IntOp.cmpi .eq (shapeCast ⟨2, ![N, 1]⟩ BT hs (shiftRow o h y)) w)
    = FloatOps.uitofp .f32 (IntOp.cmpi .eq
        (broadcastInDim ⟨2, ![N, 4]⟩ ![0, 1] h2 (broadcastInDim ⟨2, ![N, 1]⟩ ![0] h1 BT)
          (ix2 (⟨o + (y 0).val, hi⟩ : Fin N) (⟨t, ht⟩ : Fin 4)))
        (broadcastInDim ⟨2, ![N, 4]⟩ ![0, 1] h3 (iotaInDim ⟨2, ![1, 4]⟩ 32 1)
          (ix2 (⟨o + (y 0).val, hi⟩ : Fin N) (⟨t, ht⟩ : Fin 4))))
  rw [eL, eP, eQ, hw]

/-! ## The logistic function -/

/-- The bit pattern of 1.0 denotes the real number 1. -/
theorem ofBits_one_f32 : Ideal.ofBits .f32 0x3F800000#32 = 1 := by
  simp [Ideal.ofBits, Ideal.ieee, -EReal.coe_mul]; norm_num

/-- The logistic function of a block is the block of the quotient 1 / (1 + exp (−z)). -/
theorem logistic_rowBlk (o : Nat) (h : o + R ≤ N) (Z : FVec Ideal ⟨2, ![N, C]⟩ .f32)
    (h1 : (⟨0, ![]⟩ : Shape).BroadcastsInDim ⟨2, ![N, C]⟩ ![]) :
    logistic (rowBlk o h Z)
      = rowBlk o h (Host.divf (broadcastInDim ⟨2, ![N, C]⟩ ![] h1 (constant (F := Ideal) ⟨0, ![]⟩ .f32 0x3F800000#32))
          (addf (broadcastInDim ⟨2, ![N, C]⟩ ![] h1 (constant (F := Ideal) ⟨0, ![]⟩ .f32 0x3F800000#32)) (Host.exp (Host.negf Z)))) := by
  funext y
  rw [rowBlk_apply]
  have hsplat : ∀ i, broadcastInDim ⟨2, ![N, C]⟩ ![] h1 (constant (F := Ideal) ⟨0, ![]⟩ .f32 0x3F800000#32) i = 1 :=
    fun i => (hostSplat_apply _ h1 i).trans ofBits_one_f32
  show Ideal.logistic (Z (shiftRow o h y))
    = Ideal.div (broadcastInDim ⟨2, ![N, C]⟩ ![] h1 (constant (F := Ideal) ⟨0, ![]⟩ .f32 0x3F800000#32) (shiftRow o h y))
        (broadcastInDim ⟨2, ![N, C]⟩ ![] h1 (constant (F := Ideal) ⟨0, ![]⟩ .f32 0x3F800000#32) (shiftRow o h y)
          + Ideal.exp (-(Z (shiftRow o h y))))
  rw [hsplat]
  rfl

end Cert.Blocks

end
-- ==== Proof.Payloads.lean ====
/-
  What each region's body computes, on a block of rows.

  Every region cuts its [100000, 64] input into ten blocks of 10000 consecutive rows and computes each block by
  itself.  The two dense products multiply a block by the whole 64 × 64 weight matrix: a row of the product depends
  on that row of the left factor only, so the block's product is the block of the whole product.  The two activation
  regions add the one-row bias, stretched down the block, and apply tanh or the logistic function entry by entry:
  again the block of the whole-array result.  A change of float format is the identity on the extended reals, and a
  cast of a block to its own shape changes nothing.
-/
import proofs.«111047_j28243704939345_1_alg».proof.Proof.Gen.KernelIdeal.Skeleton
import proofs.«111047_j28243704939345_1_alg».proof.Proof.LibBlockOfWhole
import Idealize.ShloMosaic.Lib.ValueLayout

noncomputable section

namespace Cert.Gcn

open Idealize.ShloMosaic Idealize.ShloMosaic.ValueIdx Cert.KernelIdeal Cert.KernelIdeal.Gen Cert.Blocks Cert.Bridge

/-- A block of 10000 rows starting at row o lies inside the 100000 rows. -/
abbrev Fits (o : Nat) : Prop := o + 10000 ≤ 100000

/-- The first dense product on a block of rows is the block of the whole product. -/
theorem dense0_block (o : Nat) (h : Fits o) (D : DotDims S100000x64 S64x64 S100000x64) (hD : D = DotDims.plain 100000 64 64)
    (X : FVec Ideal S100000x64 .f32) (W : FVec Ideal S64x64 .f32) :
    k0_pay1 (F := Ideal) (rowBlk o h X) W = rowBlk o h (Host.dotGeneral D none X W) := by
  unfold k0_pay1
  exact matmul_rowBlk (φ₁ := .bf16) (φ₂ := .bf16) o h _ rfl D hD X W

/-- The second dense product on a block of rows is the block of the whole product. -/
theorem dense2_block (o : Nat) (h : Fits o) (D : DotDims S100000x64 S64x64 S100000x64) (hD : D = DotDims.plain 100000 64 64)
    (X : FVec Ideal S100000x64 .f32) (W : FVec Ideal S64x64 .f32) :
    k2_pay1 (F := Ideal) (rowBlk o h X) W = rowBlk o h (Host.dotGeneral D none X W) := by
  unfold k2_pay1
  simp only [shapeCast_self]
  exact matmul_rowBlk (φ₁ := .bf16) (φ₂ := .bf16) o h _ rfl D hD X W

/-- The one-row bias stretched down a block is the block of the row stretched down all rows. -/
theorem biasStretch_block (o : Nat) (h : Fits o) (B : FVec Ideal S1x64 .f32)
    (hb : S1x64.Broadcasts S10000x64) (hB : S1x64.BroadcastsInDim S100000x64 ![0, 1]) :
    broadcastTo S10000x64 B hb = rowBlk o h (broadcastInDim S100000x64 ![0, 1] hB B) := by
  funext y
  rw [rowBlk_apply, stretchRow_apply, hostStretchRow_apply, shiftRow_rowZero o h y]

/-- Bias and tanh on a block of rows is the block of the whole-array bias and tanh. -/
theorem tanh_block (o : Nat) (h : Fits o) (hB : S1x64.BroadcastsInDim S100000x64 ![0, 1])
    (H : FVec Ideal S100000x64 .f32) (B : FVec Ideal S1x64 .f32) :
    k1_pay1 (F := Ideal) (rowBlk o h H) B = rowBlk o h (Host.tanh (addf H (broadcastInDim S100000x64 ![0, 1] hB B))) := by
  unfold k1_pay1
  simp only [shapeCast_self]
  rw [biasStretch_block o h B _ hB, addf_rowBlk]
  rfl

/-- Bias and the logistic function on a block of rows is the block of the whole-array bias followed by the quotient
    1 / (1 + exp (−z)), which is what the logistic function is. -/
theorem logistic_block (o : Nat) (h : Fits o) (hB : S1x64.BroadcastsInDim S100000x64 ![0, 1])
    (h1 : S_.BroadcastsInDim S100000x64 ![])
    (H : FVec Ideal S100000x64 .f32) (B : FVec Ideal S1x64 .f32) :
    k3_pay1 (F := Ideal) (rowBlk o h H) B
      = rowBlk o h (Host.divf (broadcastInDim S100000x64 ![] h1 (constant (F := Ideal) S_ .f32 0x3F800000#32))
          (addf (broadcastInDim S100000x64 ![] h1 (constant (F := Ideal) S_ .f32 0x3F800000#32))
            (Host.exp (Host.negf (addf H (broadcastInDim S100000x64 ![0, 1] hB B)))))) := by
  unfold k3_pay1
  simp only [shapeCast_self]
  rw [biasStretch_block o h B _ hB, addf_rowBlk]
  exact logistic_rowBlk o h _ h1

end Cert.Gcn

end
-- ==== Proof.Region0.lean ====
/-
  The first dense region as one whole-array product.

  The region multiplies each block of 10000 rows of x by the whole weight matrix and writes the block back at the same
  rows; the ten blocks tile the output, so the output is x · W1 as the host's dot_general states it.
-/
import proofs.«111047_j28243704939345_1_alg».proof.Proof.Gen.KernelIdeal.Frame
import proofs.«111047_j28243704939345_1_alg».proof.Proof.Payloads

set_option maxRecDepth 16384

noncomputable section

namespace Cert.Gcn.Region0

open Idealize.ShloMosaic Idealize.ShloMosaic.TcCoe Idealize.ShloMosaic.ValueIdx Idealize.SL.Sem
open Cert.KernelIdeal Cert.KernelIdeal.Gen Cert.Blocks Cert.Gcn
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- At grid point t the row-blocked windows sit at block (t, 0) and the small operand at block (0, 0). -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 10 := Nat.lt_of_lt_of_eq t.isLt N_0

theorem fits (t : Fin cfg0.N) : Fits (t.val * 10000) := by
  have := point_lt t
  show t.val * 10000 + 10000 ≤ 100000
  omega

/-- The whole-array function the region computes. -/
abbrev G (D : DotDims S100000x64 S64x64 S100000x64) (hD : D = DotDims.plain 100000 64 64) (A0 : FVec Ideal S100000x64 .f32) (A1 : FVec Ideal S64x64 .f32) : FVec Ideal S100000x64 .f32 :=
  Host.dotGeneral D none A0 A1

/-- What grid point t writes back is block t of the whole-array function of the arrays the region finds. -/
theorem flushed_eq (D : DotDims S100000x64 S64x64 S100000x64) (hD : D = DotDims.plain 100000 64 64) (c : Dev nD) (t : Fin cfg0.N) :
    (dat0 V c).flushed 2 t
      = ((cfg0.win 2).blk t).view.read (Elt Ideal) (G D hD (V c main_arg0) (V c main_arg3)) := by
  show (cfg0.win 2).cut (grid0.coords t) ((dat0 V c).after 2 t) = _
  rw [after0_2]
  unfold out0_2
  rw [View.canon_unit_zero origin]
  simp only [View.ld_unit_zero (S := S10000x64) origin, View.ld_unit_zero (S := S64x64) origin]
  obtain ⟨e0, e1, e2, e3, e4, e5⟩ := blockIndex t
  have hrows : iblk0 V c 0 t = rowBlk (t.val * 10000) (fits t) (V c main_arg0) := by
    funext y
    show V c main_arg0 (((cfg0.win 0).blk t).view.emb y) = V c main_arg0 (shiftRow (t.val * 10000) (fits t) y)
    refine congrArg _ (funext fun a => Fin.ext ?_)
    match a with
    | ⟨0, _⟩ => show win0_0.index t (0 : Fin 2) * 10000 + 1 * (y 0).val = t.val * 10000 + (y 0).val; omega
    | ⟨1, _⟩ => show win0_0.index t (1 : Fin 2) * 64 + 1 * (y 1).val = (y 1).val; omega
  have hsmall : iblk0 V c 1 t = V c main_arg3 := by
    funext y
    show V c main_arg3 (((cfg0.win 1).blk t).view.emb y) = V c main_arg3 y
    refine congrArg _ (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega
  rw [hrows, hsmall, dense0_block (t.val * 10000) (fits t) D hD]
  funext j
  show G D hD (V c main_arg0) (V c main_arg3) (shiftRow (t.val * 10000) (fits t) j)
    = G D hD (V c main_arg0) (V c main_arg3) (((cfg0.win 2).blk t).view.emb j)
  refine congrArg _ (funext fun a => Fin.ext ?_)
  match a with
  | ⟨0, _⟩ => show t.val * 10000 + (j 0).val = win0_2.index t (0 : Fin 2) * 10000 + 1 * (j 0).val; omega
  | ⟨1, _⟩ => show (j 1).val = win0_2.index t (1 : Fin 2) * 64 + 1 * (j 1).val; omega

/-- An index of the output array is in point t's block iff each coordinate is in the block's range on its axis. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v32).slice (win0_2.rect t)).set ↔ _
  rw [View.set_slice_whole, Rect.mem_set_unit]
  exact Iff.rfl

/-- Row r of the output lies in the block of point r / 10000: the ten blocks cover the array. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hq : (i 0).val / 10000 < cfg0.N := by rw [show cfg0.N = 10 from N_0]; omega
  refine ⟨⟨(i 0).val / 10000, hq⟩, flush0_2 _, ?_⟩
  rw [mem_block]
  obtain ⟨-, -, -, -, e4, e5⟩ := blockIndex ⟨(i 0).val / 10000, hq⟩
  intro a
  match a with
  | ⟨0, _⟩ =>
    show win0_2.index ⟨(i 0).val / 10000, hq⟩ (0 : Fin 2) * 10000 ≤ (i 0).val
      ∧ (i 0).val < win0_2.index ⟨(i 0).val / 10000, hq⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, hq⟩ (1 : Fin 2) * 64 ≤ (i 1).val
      ∧ (i 1).val < win0_2.index ⟨(i 0).val / 10000, hq⟩ (1 : Fin 2) * 64 + 64
    rw [e5]
    omega

/-- The region's output array after its run is the whole-array function of the arrays it found at entry. -/
theorem value (D : DotDims S100000x64 S64x64 S100000x64) (hD : D = DotDims.plain 100000 64 64) (c : Dev nD) :
    (dat0 V c).arrAt 2 cfg0.N = G D hD (V c main_arg0) (V c main_arg3) :=
  (dat0 V c).arrAt_eq_of_cover 2 _ (fun t _ => flushed_eq V D hD c t) covered

end Cert.Gcn.Region0

end
-- ==== Proof.Region1.lean ====
/-
  The bias-and-tanh region as one whole-array expression.

  The region adds the one-row bias to each block of 10000 rows of the aggregated features and applies tanh; the ten
  blocks tile the output, so the output is tanh (agg + bias stretched down all rows).
-/
import proofs.«111047_j28243704939345_1_alg».proof.Proof.Gen.KernelIdeal.Frame
import proofs.«111047_j28243704939345_1_alg».proof.Proof.Payloads

set_option maxRecDepth 16384

noncomputable section

namespace Cert.Gcn.Region1

open Idealize.ShloMosaic Idealize.ShloMosaic.TcCoe Idealize.ShloMosaic.ValueIdx Idealize.SL.Sem
open Cert.KernelIdeal Cert.KernelIdeal.Gen Cert.Blocks Cert.Gcn
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- At grid point t the row-blocked windows sit at block (t, 0) and the small operand at block (0, 0). -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 10 := Nat.lt_of_lt_of_eq t.isLt N_1

theorem fits (t : Fin cfg1.N) : Fits (t.val * 10000) := by
  have := point_lt t
  show t.val * 10000 + 10000 ≤ 100000
  omega

/-- The whole-array function the region computes. -/
abbrev G (hB : S1x64.BroadcastsInDim S100000x64 ![0, 1]) (A0 : FVec Ideal S100000x64 .f32) (A1 : FVec Ideal S1x64 .f32) : FVec Ideal S100000x64 .f32 :=
  Host.tanh (addf A0 (broadcastInDim S100000x64 ![0, 1] hB A1))

/-- What grid point t writes back is block t of the whole-array function of the arrays the region finds. -/
theorem flushed_eq (hB : S1x64.BroadcastsInDim S100000x64 ![0, 1]) (c : Dev nD) (t : Fin cfg1.N) :
    (dat1 V c).flushed 2 t
      = ((cfg1.win 2).blk t).view.read (Elt Ideal) (G hB (V c main_v45) (V c main_v46)) := by
  show (cfg1.win 2).cut (grid1.coords t) ((dat1 V c).after 2 t) = _
  rw [after1_2]
  unfold out1_2
  rw [View.canon_unit_zero origin]
  simp only [View.ld_unit_zero (S := S10000x64) origin, View.ld_unit_zero (S := S1x64) origin]
  obtain ⟨e0, e1, e2, e3, e4, e5⟩ := blockIndex t
  have hrows : iblk1 V c 0 t = rowBlk (t.val * 10000) (fits t) (V c main_v45) := by
    funext y
    show V c main_v45 (((cfg1.win 0).blk t).view.emb y) = V c main_v45 (shiftRow (t.val * 10000) (fits t) y)
    refine congrArg _ (funext fun a => Fin.ext ?_)
    match a with
    | ⟨0, _⟩ => show win1_0.index t (0 : Fin 2) * 10000 + 1 * (y 0).val = t.val * 10000 + (y 0).val; omega
    | ⟨1, _⟩ => show win1_0.index t (1 : Fin 2) * 64 + 1 * (y 1).val = (y 1).val; omega
  have hsmall : iblk1 V c 1 t = V c main_v46 := by
    funext y
    show V c main_v46 (((cfg1.win 1).blk t).view.emb y) = V c main_v46 y
    refine congrArg _ (funext fun a => Fin.ext ?_)
    match a with
    | ⟨0, _⟩ => show win1_1.index t (0 : Fin 2) * 1 + 1 * (y 0).val = (y 0).val; omega
    | ⟨1, _⟩ => show win1_1.index t (1 : Fin 2) * 64 + 1 * (y 1).val = (y 1).val; omega
  rw [hrows, hsmall, tanh_block (t.val * 10000) (fits t) hB]
  funext j
  show G hB (V c main_v45) (V c main_v46) (shiftRow (t.val * 10000) (fits t) j)
    = G hB (V c main_v45) (V c main_v46) (((cfg1.win 2).blk t).view.emb j)
  refine congrArg _ (funext fun a => Fin.ext ?_)
  match a with
  | ⟨0, _⟩ => show t.val * 10000 + (j 0).val = win1_2.index t (0 : Fin 2) * 10000 + 1 * (j 0).val; omega
  | ⟨1, _⟩ => show (j 1).val = win1_2.index t (1 : Fin 2) * 64 + 1 * (j 1).val; omega

/-- An index of the output array is in point t's block iff each coordinate is in the block's range on its axis. -/
theorem mem_block (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v47).slice (win1_2.rect t)).set ↔ _
  rw [View.set_slice_whole, Rect.mem_set_unit]
  exact Iff.rfl

/-- Row r of the output lies in the block of point r / 10000: the ten blocks cover the array. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hq : (i 0).val / 10000 < cfg1.N := by rw [show cfg1.N = 10 from N_1]; omega
  refine ⟨⟨(i 0).val / 10000, hq⟩, flush1_2 _, ?_⟩
  rw [mem_block]
  obtain ⟨-, -, -, -, e4, e5⟩ := blockIndex ⟨(i 0).val / 10000, hq⟩
  intro a
  match a with
  | ⟨0, _⟩ =>
    show win1_2.index ⟨(i 0).val / 10000, hq⟩ (0 : Fin 2) * 10000 ≤ (i 0).val
      ∧ (i 0).val < win1_2.index ⟨(i 0).val / 10000, hq⟩ (0 : Fin 2) * 10000 + 10000
    rw [e4]
    show (i 0).val / 10000 * 10000 ≤ (i 0).val ∧ (i 0).val < (i 0).val / 10000 * 10000 + 10000
    omega
  | ⟨1, _⟩ =>
    show win1_2.index ⟨(i 0).val / 10000, hq⟩ (1 : Fin 2) * 64 ≤ (i 1).val
      ∧ (i 1).val < win1_2.index ⟨(i 0).val / 10000, hq⟩ (1 : Fin 2) * 64 + 64
    rw [e5]
    omega

/-- The region's output array after its run is the whole-array function of the arrays it found at entry. -/
theorem value (hB : S1x64.BroadcastsInDim S100000x64 ![0, 1]) (c : Dev nD) :
    (dat1 V c).arrAt 2 cfg1.N = G hB (V c main_v45) (V c main_v46) :=
  (dat1 V c).arrAt_eq_of_cover 2 _ (fun t _ => flushed_eq V hB c t) covered

end Cert.Gcn.Region1

end
-- ==== Proof.Region2.lean ====
/-
  The second dense region as one whole-array product.

  The region multiplies each block of 10000 rows of the hidden features by the whole weight matrix and writes the
  block back at the same rows; the ten blocks tile the output, so the output is h · W2 as the host's dot_general
  states it.
-/
import proofs.«111047_j28243704939345_1_alg».proof.Proof.Gen.KernelIdeal.Frame
import proofs.«111047_j28243704939345_1_alg».proof.Proof.Payloads

set_option maxRecDepth 16384

noncomputable section

namespace Cert.Gcn.Region2

open Idealize.ShloMosaic Idealize.ShloMosaic.TcCoe Idealize.ShloMosaic.ValueIdx Idealize.SL.Sem
open Cert.KernelIdeal Cert.KernelIdeal.Gen Cert.Blocks Cert.Gcn
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- At grid point t the row-blocked windows sit at block (t, 0) and the small operand at block (0, 0). -/
theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem point_lt (t : Fin cfg2.N) : t.val < 10 := Nat.lt_of_lt_of_eq t.isLt N_2

theorem fits (t : Fin cfg2.N) : Fits (t.val * 10000) := by
  have := point_lt t
  show t.val * 10000 + 10000 ≤ 100000
  omega

/-- The whole-array function the region computes. -/
abbrev G (D : DotDims S100000x64 S64x64 S100000x64) (hD : D = DotDims.plain 100000 64 64) (A0 : FVec Ideal S100000x64 .f32) (A1 : FVec Ideal S64x64 .f32) : FVec Ideal S100000x64 .f32 :=
  Host.dotGeneral D none A0 A1

/-- What grid point t writes back is block t of the whole-array function of the arrays the region finds. -/
theorem flushed_eq (D : DotDims S100000x64 S64x64 S100000x64) (hD : D = DotDims.plain 100000 64 64) (c : Dev nD) (t : Fin cfg2.N) :
    (dat2 V c).flushed 2 t
      = ((cfg2.win 2).blk t).view.read (Elt Ideal) (G D hD (V c main_v47) (V c main_arg5)) := by
  show (cfg2.win 2).cut (grid2.coords t) ((dat2 V c).after 2 t) = _
  rw [after2_2]
  unfold out2_2
  rw [View.canon_unit_zero origin]
  simp only [View.ld_unit_zero (S := S10000x64) origin, View.ld_unit_zero (S := S64x64) origin]
  obtain ⟨e0, e1, e2, e3, e4, e5⟩ := blockIndex t
  have hrows : iblk2 V c 0 t = rowBlk (t.val * 10000) (fits t) (V c main_v47) := by
    funext y
    show V c main_v47 (((cfg2.win 0).blk t).view.emb y) = V c main_v47 (shiftRow (t.val * 10000) (fits t) y)
    refine congrArg _ (funext fun a => Fin.ext ?_)
    match a with
    | ⟨0, _⟩ => show win2_0.index t (0 : Fin 2) * 10000 + 1 * (y 0).val = t.val * 10000 + (y 0).val; omega
    | ⟨1, _⟩ => show win2_0.index t (1 : Fin 2) * 64 + 1 * (y 1).val = (y 1).val; omega
  have hsmall : iblk2 V c 1 t = V c main_arg5 := by
    funext y
    show V c main_arg5 (((cfg2.win 1).blk t).view.emb y) = V c main_arg5 y
    refine congrArg _ (funext fun a => Fin.ext ?_)
    match a with
    | ⟨0, _⟩ => show win2_1.index t (0 : Fin 2) * 64 + 1 * (y 0).val = (y 0).val; omega
    | ⟨1, _⟩ => show win2_1.index t (1 : Fin 2) * 64 + 1 * (y 1).val = (y 1).val; omega
  rw [hrows, hsmall, dense2_block (t.val * 10000) (fits t) D hD]
  funext j
  show G D hD (V c main_v47) (V c main_arg5) (shiftRow (t.val * 10000) (fits t) j)
    = G D hD (V c main_v47) (V c main_arg5) (((cfg2.win 2).blk t).view.emb j)
  refine congrArg _ (funext fun a => Fin.ext ?_)
  match a with
  | ⟨0, _⟩ => show t.val * 10000 + (j 0).val = win2_2.index t (0 : Fin 2) * 10000 + 1 * (j 0).val; omega
  | ⟨1, _⟩ => show (j 1).val = win2_2.index t (1 : Fin 2) * 64 + 1 * (j 1).val; omega

/-- An index of the output array is in point t's block iff each coordinate is in the block's range on its axis. -/
theorem mem_block (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v48).slice (win2_2.rect t)).set ↔ _
  rw [View.set_slice_whole, Rect.mem_set_unit]
  exact Iff.rfl

/-- Row r of the output lies in the block of point r / 10000: the ten blocks cover the array. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hq : (i 0).val / 10000 < cfg2.N := by rw [show cfg2.N = 10 from N_2]; omega
  refine ⟨⟨(i 0).val / 10000, hq⟩, flush2_2 _, ?_⟩
  rw [mem_block]
  obtain ⟨-, -, -, -, e4, e5⟩ := blockIndex ⟨(i 0).val / 10000, hq⟩
  intro a
  match a with
  | ⟨0, _⟩ =>
    show win2_2.index ⟨(i 0).val / 10000, hq⟩ (0 : Fin 2) * 10000 ≤ (i 0).val
      ∧ (i 0).val < win2_2.index ⟨(i 0).val / 10000, hq⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, hq⟩ (1 : Fin 2) * 64 ≤ (i 1).val
      ∧ (i 1).val < win2_2.index ⟨(i 0).val / 10000, hq⟩ (1 : Fin 2) * 64 + 64
    rw [e5]
    omega

/-- The region's output array after its run is the whole-array function of the arrays it found at entry. -/
theorem value (D : DotDims S100000x64 S64x64 S100000x64) (hD : D = DotDims.plain 100000 64 64) (c : Dev nD) :
    (dat2 V c).arrAt 2 cfg2.N = G D hD (V c main_v47) (V c main_arg5) :=
  (dat2 V c).arrAt_eq_of_cover 2 _ (fun t _ => flushed_eq V D hD c t) covered

end Cert.Gcn.Region2

end
-- ==== Proof.Region3.lean ====
/-
  The bias-and-logistic region as one whole-array expression.

  The region adds the one-row bias to each block of 10000 rows of the aggregated features and applies the logistic
  function; the ten blocks tile the output, so the output is 1 / (1 + exp (−(agg + bias stretched down all rows))).
-/
import proofs.«111047_j28243704939345_1_alg».proof.Proof.Gen.KernelIdeal.Frame
import proofs.«111047_j28243704939345_1_alg».proof.Proof.Payloads

set_option maxRecDepth 16384

noncomputable section

namespace Cert.Gcn.Region3

open Idealize.ShloMosaic Idealize.ShloMosaic.TcCoe Idealize.ShloMosaic.ValueIdx Idealize.SL.Sem
open Cert.KernelIdeal Cert.KernelIdeal.Gen Cert.Blocks Cert.Gcn
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- At grid point t the row-blocked windows sit at block (t, 0) and the small operand at block (0, 0). -/
theorem blockIndex : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem point_lt (t : Fin cfg3.N) : t.val < 10 := Nat.lt_of_lt_of_eq t.isLt N_3

theorem fits (t : Fin cfg3.N) : Fits (t.val * 10000) := by
  have := point_lt t
  show t.val * 10000 + 10000 ≤ 100000
  omega

/-- The whole-array function the region computes. -/
abbrev G (hB : S1x64.BroadcastsInDim S100000x64 ![0, 1]) (h1 : S_.BroadcastsInDim S100000x64 ![]) (A0 : FVec Ideal S100000x64 .f32) (A1 : FVec Ideal S1x64 .f32) : FVec Ideal S100000x64 .f32 :=
  Host.divf (broadcastInDim S100000x64 ![] h1 (constant (F := Ideal) S_ .f32 0x3F800000#32))
    (addf (broadcastInDim S100000x64 ![] h1 (constant (F := Ideal) S_ .f32 0x3F800000#32))
      (Host.exp (Host.negf (addf A0 (broadcastInDim S100000x64 ![0, 1] hB A1)))))

/-- What grid point t writes back is block t of the whole-array function of the arrays the region finds. -/
theorem flushed_eq (hB : S1x64.BroadcastsInDim S100000x64 ![0, 1]) (h1 : S_.BroadcastsInDim S100000x64 ![]) (c : Dev nD) (t : Fin cfg3.N) :
    (dat3 V c).flushed 2 t
      = ((cfg3.win 2).blk t).view.read (Elt Ideal) (G hB h1 (V c main_v61) (V c main_v62)) := by
  show (cfg3.win 2).cut (grid3.coords t) ((dat3 V c).after 2 t) = _
  rw [after3_2]
  unfold out3_2
  rw [View.canon_unit_zero origin]
  simp only [View.ld_unit_zero (S := S10000x64) origin, View.ld_unit_zero (S := S1x64) origin]
  obtain ⟨e0, e1, e2, e3, e4, e5⟩ := blockIndex t
  have hrows : iblk3 V c 0 t = rowBlk (t.val * 10000) (fits t) (V c main_v61) := by
    funext y
    show V c main_v61 (((cfg3.win 0).blk t).view.emb y) = V c main_v61 (shiftRow (t.val * 10000) (fits t) y)
    refine congrArg _ (funext fun a => Fin.ext ?_)
    match a with
    | ⟨0, _⟩ => show win3_0.index t (0 : Fin 2) * 10000 + 1 * (y 0).val = t.val * 10000 + (y 0).val; omega
    | ⟨1, _⟩ => show win3_0.index t (1 : Fin 2) * 64 + 1 * (y 1).val = (y 1).val; omega
  have hsmall : iblk3 V c 1 t = V c main_v62 := by
    funext y
    show V c main_v62 (((cfg3.win 1).blk t).view.emb y) = V c main_v62 y
    refine congrArg _ (funext fun a => Fin.ext ?_)
    match a with
    | ⟨0, _⟩ => show win3_1.index t (0 : Fin 2) * 1 + 1 * (y 0).val = (y 0).val; omega
    | ⟨1, _⟩ => show win3_1.index t (1 : Fin 2) * 64 + 1 * (y 1).val = (y 1).val; omega
  rw [hrows, hsmall, logistic_block (t.val * 10000) (fits t) hB h1]
  funext j
  show G hB h1 (V c main_v61) (V c main_v62) (shiftRow (t.val * 10000) (fits t) j)
    = G hB h1 (V c main_v61) (V c main_v62) (((cfg3.win 2).blk t).view.emb j)
  refine congrArg _ (funext fun a => Fin.ext ?_)
  match a with
  | ⟨0, _⟩ => show t.val * 10000 + (j 0).val = win3_2.index t (0 : Fin 2) * 10000 + 1 * (j 0).val; omega
  | ⟨1, _⟩ => show (j 1).val = win3_2.index t (1 : Fin 2) * 64 + 1 * (j 1).val; omega

/-- An index of the output array is in point t's block iff each coordinate is in the block's range on its axis. -/
theorem mem_block (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v63).slice (win3_2.rect t)).set ↔ _
  rw [View.set_slice_whole, Rect.mem_set_unit]
  exact Iff.rfl

/-- Row r of the output lies in the block of point r / 10000: the ten blocks cover the array. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hq : (i 0).val / 10000 < cfg3.N := by rw [show cfg3.N = 10 from N_3]; omega
  refine ⟨⟨(i 0).val / 10000, hq⟩, flush3_2 _, ?_⟩
  rw [mem_block]
  obtain ⟨-, -, -, -, e4, e5⟩ := blockIndex ⟨(i 0).val / 10000, hq⟩
  intro a
  match a with
  | ⟨0, _⟩ =>
    show win3_2.index ⟨(i 0).val / 10000, hq⟩ (0 : Fin 2) * 10000 ≤ (i 0).val
      ∧ (i 0).val < win3_2.index ⟨(i 0).val / 10000, hq⟩ (0 : Fin 2) * 10000 + 10000
    rw [e4]
    show (i 0).val / 10000 * 10000 ≤ (i 0).val ∧ (i 0).val < (i 0).val / 10000 * 10000 + 10000
    omega
  | ⟨1, _⟩ =>
    show win3_2.index ⟨(i 0).val / 10000, hq⟩ (1 : Fin 2) * 64 ≤ (i 1).val
      ∧ (i 1).val < win3_2.index ⟨(i 0).val / 10000, hq⟩ (1 : Fin 2) * 64 + 64
    rw [e5]
    omega

/-- The region's output array after its run is the whole-array function of the arrays it found at entry. -/
theorem value (hB : S1x64.BroadcastsInDim S100000x64 ![0, 1]) (h1 : S_.BroadcastsInDim S100000x64 ![]) (c : Dev nD) :
    (dat3 V c).arrAt 2 cfg3.N = G hB h1 (V c main_v61) (V c main_v62) :=
  (dat3 V c).arrAt_eq_of_cover 2 _ (fun t _ => flushed_eq V hB h1 c t) covered

end Cert.Gcn.Region3

end
-- ==== Proof.HostStretches.lean ====
/-
  The host operations of the kernel program, stretch by stretch, in the reference's terms.

  The kernel program's host code is the reference's own: the edge list with one self loop per node appended, the
  degree of every target node as a scatter-add of the edge weights, its inverse square root where the degree is
  positive, the per-edge normalisation (the source's factor, the weight, the target's factor), and per layer a
  gather of the dense product's rows by source node, the scaling by the normalisation and a scatter-add by target
  node.  The kernel program computes the normalisation once and uses it in both layers; the reference computes it
  again for the second layer, by the same operations of the same arguments, so the two copies are one array.  Each
  lemma reads one buffer after one stretch of host operations, from whatever contents the stretch starts from.
  Nothing here opens a gather or a scatter: the operations are compared, never evaluated.
-/
import proofs.«111047_j28243704939345_1_alg».proof.Proof.Gen.KernelIdeal.Frame
import proofs.«111047_j28243704939345_1_alg».proof.Proof.Gen.ReferenceIdeal.Read

set_option maxRecDepth 16384

noncomputable section

namespace Cert.Gcn.Stretch

open Idealize.ShloMosaic Idealize.ShloMosaic.TcCoe Idealize.SL.Sem Idealize.ShloMosaic.StableHlo
open Cert.KernelIdeal Cert.KernelIdeal.Gen
open Cert.ReferenceIdeal.Read (val_main_v0 val_main_v4 val_main_v7 val_main_v32 val_main_v45 val_main_v46 val_main_v50
  val_main_v54 val_main_v57 val_main_v82 val_main_v95 val_main_v96)

variable {F : FTy → Type} [FloatOps F]

attribute [local irreducible] Host.gather Host.scatterAdd

/-! ## The second layer's copies of the edge arrays are the first layer's -/

theorem src_again (x1 : (⟨S2x1250000, .i32⟩ : BufTy).Contents (Elt F)) : val_main_v54 (F := F) x1 = val_main_v4 (F := F) x1 := rfl
theorem dst_again (x1 : (⟨S2x1250000, .i32⟩ : BufTy).Contents (Elt F)) : val_main_v57 (F := F) x1 = val_main_v7 (F := F) x1 := rfl
theorem norm_again (x1 : (⟨S2x1250000, .i32⟩ : BufTy).Contents (Elt F)) (x2 : (⟨S1250000, .f32⟩ : BufTy).Contents (Elt F)) :
    val_main_v82 (F := F) x1 x2 = val_main_v32 (F := F) x1 x2 := rfl

/-! ## Before the first region: the edge arrays and the normalisation, and the arguments untouched -/

section Prelude

variable (m : (ℓ : Loc nD τ sig) → Buf (Elt F) ℓ) (ρ : Dev nD → PrngReg) (c : Dev nD)

theorem entry_src : W3 m ρ c (Proc.devRef .tc main_v3) = val_main_v4 (F := F) (m ((c.tc : Thread nD τ).loc main_arg1)) := by
  dsimp only [W3, W2, W1, hostOps0, hostOps0_1, hostOps0_2]
  after_results_simp
  rfl

theorem entry_dst : W3 m ρ c (Proc.devRef .tc main_v6) = val_main_v7 (F := F) (m ((c.tc : Thread nD τ).loc main_arg1)) := by
  dsimp only [W3, W2, W1, hostOps0, hostOps0_1, hostOps0_2]
  after_results_simp
  rfl

theorem entry_norm : W3 m ρ c (Proc.devRef .tc main_v31) = val_main_v32 (F := F) (m ((c.tc : Thread nD τ).loc main_arg1)) (m ((c.tc : Thread nD τ).loc main_arg2)) := by
  dsimp only [W3, W2, W1, hostOps0, hostOps0_1, hostOps0_2]
  after_results_simp
  rfl

theorem entry_arg0 : W3 m ρ c (Proc.devRef .tc main_arg0) = (m ((c.tc : Thread nD τ).loc main_arg0)) := by
  dsimp only [W3, W2, W1, hostOps0, hostOps0_1, hostOps0_2]
  after_results_simp

theorem entry_arg3 : W3 m ρ c (Proc.devRef .tc main_arg3) = (m ((c.tc : Thread nD τ).loc main_arg3)) := by
  dsimp only [W3, W2, W1, hostOps0, hostOps0_1, hostOps0_2]
  after_results_simp

theorem entry_arg4 : W3 m ρ c (Proc.devRef .tc main_arg4) = (m ((c.tc : Thread nD τ).loc main_arg4)) := by
  dsimp only [W3, W2, W1, hostOps0, hostOps0_1, hostOps0_2]
  after_results_simp

theorem entry_arg5 : W3 m ρ c (Proc.devRef .tc main_arg5) = (m ((c.tc : Thread nD τ).loc main_arg5)) := by
  dsimp only [W3, W2, W1, hostOps0, hostOps0_1, hostOps0_2]
  after_results_simp

theorem entry_arg6 : W3 m ρ c (Proc.devRef .tc main_arg6) = (m ((c.tc : Thread nD τ).loc main_arg6)) := by
  dsimp only [W3, W2, W1, hostOps0, hostOps0_1, hostOps0_2]
  after_results_simp

end Prelude

/-! ## Between the first dense region and the tanh region -/

section Layer1

variable (Wv : Valuation τ sig (Elt F))

/-- Gathering the product's rows by source node, scaling by the normalisation and scatter-adding by target node. -/
theorem agg1 (x0 : (⟨S100000x64, .f32⟩ : BufTy).Contents (Elt F)) (x1 : (⟨S2x1250000, .i32⟩ : BufTy).Contents (Elt F))
    (x2 : (⟨S1250000, .f32⟩ : BufTy).Contents (Elt F)) (x3 : (⟨S64x64, .f32⟩ : BufTy).Contents (Elt F))
    (hxw : Wv (Proc.devRef .tc main_v32) = val_main_v0 (F := F) x0 x3) (hsrc : Wv (Proc.devRef .tc main_v3) = val_main_v4 (F := F) x1)
    (hdst : Wv (Proc.devRef .tc main_v6) = val_main_v7 (F := F) x1) (hnorm : Wv (Proc.devRef .tc main_v31) = val_main_v32 (F := F) x1 x2) :
    StableHlo.after hostOps1 Wv (Proc.devRef .tc main_v45) = val_main_v45 (F := F) x0 x1 x2 x3 := by
  dsimp only [hostOps1]
  after_results_simp
  rw [hxw, hsrc, hdst, hnorm]
  rfl

/-- The first bias vector laid out as one row. -/
theorem bias1 : StableHlo.after hostOps1 Wv (Proc.devRef .tc main_v46) = shapeCast S1x64 (Wv (Proc.devRef .tc main_arg4)) Facts₀.shapeCasts_S64_S1x64 := by
  dsimp only [hostOps1]
  after_results_simp
  rfl

theorem keep1_v3 : StableHlo.after hostOps1 Wv (Proc.devRef .tc main_v3) = Wv (Proc.devRef .tc main_v3) := by
  dsimp only [hostOps1]
  after_results_simp

theorem keep1_v6 : StableHlo.after hostOps1 Wv (Proc.devRef .tc main_v6) = Wv (Proc.devRef .tc main_v6) := by
  dsimp only [hostOps1]
  after_results_simp

theorem keep1_v31 : StableHlo.after hostOps1 Wv (Proc.devRef .tc main_v31) = Wv (Proc.devRef .tc main_v31) := by
  dsimp only [hostOps1]
  after_results_simp

theorem keep1_arg5 : StableHlo.after hostOps1 Wv (Proc.devRef .tc main_arg5) = Wv (Proc.devRef .tc main_arg5) := by
  dsimp only [hostOps1]
  after_results_simp

theorem keep1_arg6 : StableHlo.after hostOps1 Wv (Proc.devRef .tc main_arg6) = Wv (Proc.devRef .tc main_arg6) := by
  dsimp only [hostOps1]
  after_results_simp

end Layer1

/-! ## Between the second dense region and the logistic region -/

section Layer2

variable (Wv : Valuation τ sig (Elt F))

/-- The same gather, scaling and scatter-add on the second product, with the one normalisation. -/
theorem agg2 (x0 : (⟨S100000x64, .f32⟩ : BufTy).Contents (Elt F)) (x1 : (⟨S2x1250000, .i32⟩ : BufTy).Contents (Elt F))
    (x2 : (⟨S1250000, .f32⟩ : BufTy).Contents (Elt F)) (x3 : (⟨S64x64, .f32⟩ : BufTy).Contents (Elt F))
    (x4 : (⟨S64, .f32⟩ : BufTy).Contents (Elt F)) (x5 : (⟨S64x64, .f32⟩ : BufTy).Contents (Elt F))
    (hxw : Wv (Proc.devRef .tc main_v48) = val_main_v50 (F := F) x0 x1 x2 x3 x4 x5) (hsrc : Wv (Proc.devRef .tc main_v3) = val_main_v4 (F := F) x1)
    (hdst : Wv (Proc.devRef .tc main_v6) = val_main_v7 (F := F) x1) (hnorm : Wv (Proc.devRef .tc main_v31) = val_main_v32 (F := F) x1 x2) :
    StableHlo.after hostOps3 Wv (Proc.devRef .tc main_v61) = val_main_v95 (F := F) x0 x1 x2 x3 x4 x5 := by
  dsimp only [hostOps3]
  after_results_simp
  rw [hxw, hsrc, hdst, hnorm, ← src_again, ← dst_again, ← norm_again]
  rfl

/-- The second bias vector laid out as one row. -/
theorem bias2 : StableHlo.after hostOps3 Wv (Proc.devRef .tc main_v62) = shapeCast S1x64 (Wv (Proc.devRef .tc main_arg6)) Facts₀.shapeCasts_S64_S1x64 := by
  dsimp only [hostOps3]
  after_results_simp
  rfl

end Layer2

end Cert.Gcn.Stretch

end
-- ==== Proof.Bridge.lean ====
/-
  The kernel program's result is the reference's last stage.

  Walking the kernel program's segment boundaries in order, every buffer a later segment reads holds the
  corresponding stage of the reference, as a function of the argument arrays: the edge arrays and the normalisation
  after the first host stretch; x · W1 after the first dense region; its normalised aggregation and the bias row after
  the next stretch; tanh of their sum after the second region; the second product after the third region; its
  aggregation, with the same normalisation, and the second bias row after the last stretch; and after the last region
  the quotient 1 / (1 + exp (−(aggregation + bias))).  A region leaves every buffer other than its own arrays as it
  found it, and a host stretch every buffer it does not write, so the edge arrays, the normalisation and the
  arguments pass through.  A bias vector reshaped to one row is the vector broadcast along a new leading axis.
-/
import proofs.«111047_j28243704939345_1_alg».proof.Proof.Region0
import proofs.«111047_j28243704939345_1_alg».proof.Proof.Region1
import proofs.«111047_j28243704939345_1_alg».proof.Proof.Region2
import proofs.«111047_j28243704939345_1_alg».proof.Proof.Region3
import proofs.«111047_j28243704939345_1_alg».proof.Proof.HostStretches

set_option maxRecDepth 16384

noncomputable section

namespace Cert.Gcn.Bridge

open Idealize.ShloMosaic Idealize.ShloMosaic.TcCoe Idealize.SL.Sem Idealize.ShloMosaic.StableHlo
open Cert.KernelIdeal Cert.KernelIdeal.Gen Cert.Gcn Cert.Bridge
open Cert.ReferenceIdeal.Read (val_main_v0 val_main_v4 val_main_v7 val_main_v32 val_main_v45 val_main_v46 val_main_v47 val_main_v48
  val_main_v49 val_main_v50 val_main_v95 val_main_v96 val_main_v97 val_main_v98 val_main_v104)

attribute [local irreducible] Host.gather Host.scatterAdd

/-! ## Each region's value, from what it finds at entry -/

section Regions

variable (V : (c : Dev nD) → (b : Ref sig .tc) → Buf (Elt Ideal) ((c : Thread nD τ).loc b)) (c : Dev nD)

theorem dense1_of (X : FVec Ideal S100000x64 .f32) (W : FVec Ideal S64x64 .f32) (hX : V c main_arg0 = X) (hW : V c main_arg3 = W) :
    (dat0 V c).arrAt 2 cfg0.N = Host.dotGeneral Cert.ReferenceIdeal.dot_S100000x64_S64x64_S100000x64_1_0_0_1_n_n none X W := by
  subst hX hW
  exact Region0.value V Cert.ReferenceIdeal.dot_S100000x64_S64x64_S100000x64_1_0_0_1_n_n rfl c

theorem tanh_of (H : FVec Ideal S100000x64 .f32) (B : FVec Ideal S1x64 .f32) (hH : V c main_v45 = H) (hB : V c main_v46 = B) :
    (dat1 V c).arrAt 2 cfg1.N = Host.tanh (addf H (broadcastInDim S100000x64 ![0, 1] Cert.ReferenceIdeal.Facts₀.bcast_S1x64_S100000x64_0_1 B)) := by
  subst hH hB
  exact Region1.value V Cert.ReferenceIdeal.Facts₀.bcast_S1x64_S100000x64_0_1 c

theorem dense2_of (X : FVec Ideal S100000x64 .f32) (W : FVec Ideal S64x64 .f32) (hX : V c main_v47 = X) (hW : V c main_arg5 = W) :
    (dat2 V c).arrAt 2 cfg2.N = Host.dotGeneral Cert.ReferenceIdeal.dot_S100000x64_S64x64_S100000x64_1_0_0_1_n_n none X W := by
  subst hX hW
  exact Region2.value V Cert.ReferenceIdeal.dot_S100000x64_S64x64_S100000x64_1_0_0_1_n_n rfl c

theorem logistic_of (H : FVec Ideal S100000x64 .f32) (B : FVec Ideal S1x64 .f32) (hH : V c main_v61 = H) (hB : V c main_v62 = B) :
    (dat3 V c).arrAt 2 cfg3.N
      = Host.divf (broadcastInDim S100000x64 ![] Cert.ReferenceIdeal.Facts₀.bcast_S_S100000x64 (constant (F := Ideal) S_ .f32 0x3F800000#32))
          (addf (broadcastInDim S100000x64 ![] Cert.ReferenceIdeal.Facts₀.bcast_S_S100000x64 (constant (F := Ideal) S_ .f32 0x3F800000#32))
            (Host.exp (Host.negf (addf H (broadcastInDim S100000x64 ![0, 1] Cert.ReferenceIdeal.Facts₀.bcast_S1x64_S100000x64_0_1 B))))) := by
  subst hH hB
  exact Region3.value V Cert.ReferenceIdeal.Facts₀.bcast_S1x64_S100000x64_0_1 Cert.ReferenceIdeal.Facts₀.bcast_S_S100000x64 c

end Regions

variable (m : (ℓ : Loc nD τ sig) → Buf (Elt Ideal) ℓ) (ρ : Dev nD → PrngReg) (c : Dev nD)

/-! ## After the first dense region -/

theorem product1 : W4 m ρ c (Proc.devRef .tc main_v32) = val_main_v0 (F := Ideal) (m ((c.tc : Thread nD τ).loc main_arg0)) (m ((c.tc : Thread nD τ).loc main_arg3)) := by
  refine (W4_arr m ρ c 2).trans ?_
  refine (dense1_of (V3 m ρ) c _ _ (Stretch.entry_arg0 m ρ c) (Stretch.entry_arg3 m ρ c)).trans ?_
  rfl

theorem src4 : W4 m ρ c (Proc.devRef .tc main_v3) = val_main_v4 (F := Ideal) (m ((c.tc : Thread nD τ).loc main_arg1)) :=
  (W4_of_ne m ρ c main_v3 (by decide)).trans (Stretch.entry_src m ρ c)
theorem dst4 : W4 m ρ c (Proc.devRef .tc main_v6) = val_main_v7 (F := Ideal) (m ((c.tc : Thread nD τ).loc main_arg1)) :=
  (W4_of_ne m ρ c main_v6 (by decide)).trans (Stretch.entry_dst m ρ c)
theorem norm4 : W4 m ρ c (Proc.devRef .tc main_v31) = val_main_v32 (F := Ideal) (m ((c.tc : Thread nD τ).loc main_arg1)) (m ((c.tc : Thread nD τ).loc main_arg2)) :=
  (W4_of_ne m ρ c main_v31 (by decide)).trans (Stretch.entry_norm m ρ c)
theorem arg4_4 : W4 m ρ c (Proc.devRef .tc main_arg4) = (m ((c.tc : Thread nD τ).loc main_arg4)) :=
  (W4_of_ne m ρ c main_arg4 (by decide)).trans (Stretch.entry_arg4 m ρ c)
theorem arg5_4 : W4 m ρ c (Proc.devRef .tc main_arg5) = (m ((c.tc : Thread nD τ).loc main_arg5)) :=
  (W4_of_ne m ρ c main_arg5 (by decide)).trans (Stretch.entry_arg5 m ρ c)
theorem arg6_4 : W4 m ρ c (Proc.devRef .tc main_arg6) = (m ((c.tc : Thread nD τ).loc main_arg6)) :=
  (W4_of_ne m ρ c main_arg6 (by decide)).trans (Stretch.entry_arg6 m ρ c)

/-! ## At the tanh region's entry, and after it -/

theorem aggregate1 : W5 m ρ c (Proc.devRef .tc main_v45) = val_main_v45 (F := Ideal) (m ((c.tc : Thread nD τ).loc main_arg0)) (m ((c.tc : Thread nD τ).loc main_arg1)) (m ((c.tc : Thread nD τ).loc main_arg2)) (m ((c.tc : Thread nD τ).loc main_arg3)) :=
  Stretch.agg1 (W4 m ρ c) _ _ _ _ (product1 m ρ c) (src4 m ρ c) (dst4 m ρ c) (norm4 m ρ c)

theorem biasRow1 : W5 m ρ c (Proc.devRef .tc main_v46) = val_main_v46 (F := Ideal) (m ((c.tc : Thread nD τ).loc main_arg4)) := by
  refine (Stretch.bias1 (W4 m ρ c)).trans ?_
  refine (congrArg (fun v => shapeCast S1x64 v Facts₀.shapeCasts_S64_S1x64) (arg4_4 m ρ c)).trans ?_
  exact reshapeRow_eq (φ := .f32) (C := 64) _ _ _

theorem hidden : W6 m ρ c (Proc.devRef .tc main_v47) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W6_arr m ρ c 2).trans ?_
  refine (tanh_of (V5 m ρ) c _ _ (aggregate1 m ρ c) (biasRow1 m ρ c)).trans ?_
  rfl

theorem src6 : W6 m ρ c (Proc.devRef .tc main_v3) = val_main_v4 (F := Ideal) (m ((c.tc : Thread nD τ).loc main_arg1)) :=
  (W6_of_ne m ρ c main_v3 (by decide)).trans ((Stretch.keep1_v3 (W4 m ρ c)).trans (src4 m ρ c))
theorem dst6 : W6 m ρ c (Proc.devRef .tc main_v6) = val_main_v7 (F := Ideal) (m ((c.tc : Thread nD τ).loc main_arg1)) :=
  (W6_of_ne m ρ c main_v6 (by decide)).trans ((Stretch.keep1_v6 (W4 m ρ c)).trans (dst4 m ρ c))
theorem norm6 : W6 m ρ c (Proc.devRef .tc main_v31) = val_main_v32 (F := Ideal) (m ((c.tc : Thread nD τ).loc main_arg1)) (m ((c.tc : Thread nD τ).loc main_arg2)) :=
  (W6_of_ne m ρ c main_v31 (by decide)).trans ((Stretch.keep1_v31 (W4 m ρ c)).trans (norm4 m ρ c))
theorem arg5_6 : W6 m ρ c (Proc.devRef .tc main_arg5) = (m ((c.tc : Thread nD τ).loc main_arg5)) :=
  (W6_of_ne m ρ c main_arg5 (by decide)).trans ((Stretch.keep1_arg5 (W4 m ρ c)).trans (arg5_4 m ρ c))
theorem arg6_6 : W6 m ρ c (Proc.devRef .tc main_arg6) = (m ((c.tc : Thread nD τ).loc main_arg6)) :=
  (W6_of_ne m ρ c main_arg6 (by decide)).trans ((Stretch.keep1_arg6 (W4 m ρ c)).trans (arg6_4 m ρ c))

/-! ## After the second dense region -/

theorem product2 : W7 m ρ c (Proc.devRef .tc main_v48) = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W7_arr m ρ c 2).trans ?_
  refine (dense2_of (V6 m ρ) c _ _ (hidden m ρ c) (arg5_6 m ρ c)).trans ?_
  rfl

theorem src7 : W7 m ρ c (Proc.devRef .tc main_v3) = val_main_v4 (F := Ideal) (m ((c.tc : Thread nD τ).loc main_arg1)) :=
  (W7_of_ne m ρ c main_v3 (by decide)).trans (src6 m ρ c)
theorem dst7 : W7 m ρ c (Proc.devRef .tc main_v6) = val_main_v7 (F := Ideal) (m ((c.tc : Thread nD τ).loc main_arg1)) :=
  (W7_of_ne m ρ c main_v6 (by decide)).trans (dst6 m ρ c)
theorem norm7 : W7 m ρ c (Proc.devRef .tc main_v31) = val_main_v32 (F := Ideal) (m ((c.tc : Thread nD τ).loc main_arg1)) (m ((c.tc : Thread nD τ).loc main_arg2)) :=
  (W7_of_ne m ρ c main_v31 (by decide)).trans (norm6 m ρ c)
theorem arg6_7 : W7 m ρ c (Proc.devRef .tc main_arg6) = (m ((c.tc : Thread nD τ).loc main_arg6)) :=
  (W7_of_ne m ρ c main_arg6 (by decide)).trans (arg6_6 m ρ c)

/-! ## At the logistic region's entry, and the result -/

theorem aggregate2 : W8 m ρ c (Proc.devRef .tc main_v61) = val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  Stretch.agg2 (W7 m ρ c) _ _ _ _ _ _ (product2 m ρ c) (src7 m ρ c) (dst7 m ρ c) (norm7 m ρ c)

theorem biasRow2 : W8 m ρ c (Proc.devRef .tc main_v62) = val_main_v96 (F := Ideal) (m ((c.tc : Thread nD τ).loc main_arg6)) := by
  refine (Stretch.bias2 (W7 m ρ c)).trans ?_
  refine (congrArg (fun v => shapeCast S1x64 v Facts₀.shapeCasts_S64_S1x64) (arg6_7 m ρ c)).trans ?_
  exact reshapeRow_eq (φ := .f32) (C := 64) _ _ _

/-- The kernel program's result buffer ends at the reference's last stage of the argument arrays. -/
theorem result : W9 m ρ c (Proc.devRef .tc main_v63) = val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W9_arr m ρ c 2).trans ?_
  refine (logistic_of (V8 m ρ) c _ _ (aggregate2 m ρ c) (biasRow2 m ρ c)).trans ?_
  rfl

end Cert.Gcn.Bridge

end
-- ==== Proof.lean ====
/-
  A two-layer graph convolution: the Pallas program against its jnp reference, equal on the extended reals.

  Both programs compute  sigmoid (Â · tanh (Â · x · W1 + b1) · W2 + b2),  where Â aggregates over the edges with one
  self loop per node, each message scaled by the inverse square roots of its two endpoints' degrees.  The kernel
  program runs the two dense products and the two bias-and-activation steps as row-blocked regions (ten blocks of
  10000 rows) and leaves the gathers and scatter-adds to the host; the reference is host operations throughout.

  At the ideal values the two are the same composition of the same operations: a dense region is the host's
  dot_general (a row of a product depends on that row of the left factor only, and a change of float format is the
  identity); the bias regions add the bias row and apply tanh, respectively the logistic function, which is by
  definition the quotient 1 / (1 + exp (−z)) the reference spells out; the host stretches are the reference's own
  operations.  The kernel program computes the edge normalisation once where the reference computes it once per
  layer, from the same arguments by the same operations.  No step uses an algebraic law that could fail at an
  infinity, so the precondition that the inputs are finite is never opened.

  The frames of the two kernel programs are the generated ones; the reference's frame is its run with the result
  dropped; the idealization rewrote nothing, so there is nothing to preserve.
-/
import proofs.«111047_j28243704939345_1_alg».proof.Defs
import proofs.«111047_j28243704939345_1_alg».proof.Proof.Gen.Kernel
import proofs.«111047_j28243704939345_1_alg».proof.Proof.Gen.Kernel.Skeleton
import proofs.«111047_j28243704939345_1_alg».proof.Proof.Gen.Kernel.Launch
import proofs.«111047_j28243704939345_1_alg».proof.Proof.Gen.Kernel.Points
import proofs.«111047_j28243704939345_1_alg».proof.Proof.Gen.Kernel.Frame
import proofs.«111047_j28243704939345_1_alg».proof.Proof.Gen.KernelIdeal
import proofs.«111047_j28243704939345_1_alg».proof.Proof.Gen.KernelIdeal.Skeleton
import proofs.«111047_j28243704939345_1_alg».proof.Proof.Gen.KernelIdeal.Launch
import proofs.«111047_j28243704939345_1_alg».proof.Proof.Gen.KernelIdeal.Points
import proofs.«111047_j28243704939345_1_alg».proof.Proof.Gen.KernelIdeal.Frame
import proofs.«111047_j28243704939345_1_alg».proof.Proof.Gen.ReferenceIdeal
import proofs.«111047_j28243704939345_1_alg».proof.Proof.Gen.ReferenceIdeal.Run
import proofs.«111047_j28243704939345_1_alg».proof.Proof.Gen.ReferenceIdeal.Read
import proofs.«111047_j28243704939345_1_alg».proof.Proof.Gen.Pre_finite_inputs
import proofs.«111047_j28243704939345_1_alg».proof.Proof.KernelRun
import proofs.«111047_j28243704939345_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with the statement about its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the reference's last stage of the (agreeing) argument arrays in their result buffers. -/
theorem algebraic : Cert.algebraic_KernelIdeal_ReferenceIdeal := by
  intro m ρ m' ρ' _ hagree
  refine ⟨fun c => Cert.ReferenceIdeal.Read.val_main_v104 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Gcn.Bridge.result m ρ c), (h c).2⟩) (Cert.KernelIdeal.Result.run_value m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v104_eq m' c).trans ?_
    rw [(hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
